-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x28x28 : Shape := ⟨4, ![32, 512, 28, 28]⟩
abbrev S2000x512 : Shape := ⟨2, ![2000, 512]⟩
abbrev S_ : Shape := ⟨0, ![]⟩

class Facts : Prop where
  bcast_S_S32x512x28x28 : S_.BroadcastsInDim S32x512x28x28 (![] : Fin 0 → Fin S32x512x28x28.rank)
  reducesTo_S32x512x28x28_S_d0_1_2_3 : S32x512x28x28.ReducesTo [0, 1, 2, 3] S_
  h_S_ : 0 < S_.numel
  bcast_S_S2000x512 : S_.BroadcastsInDim S2000x512 (![] : Fin 0 → Fin S2000x512.rank)
  reducesTo_S2000x512_S_d0_1 : S2000x512.ReducesTo [0, 1] S_

variable [Facts]

def fn {F : FTy → Type} [FloatOps F] (main_arg0 : FVec F S32x512x28x28 .f32) (main_arg1 : FVec F S2000x512 .f32) : IVec S_ 1 :=
  let main_v0 : FVec F S32x512x28x28 .f32 := Host.absf main_arg0
  let main_cst : FVec F S_ .f32 := constant S_ .f32 0x7F800000#32
  let main_v1 : FVec F S32x512x28x28 .f32 := broadcastInDim S32x512x28x28 ![] bcast_S_S32x512x28x28 main_cst
  let main_v2 : IVec S32x512x28x28 1 := cmpf .olt main_v0 main_v1
  let main_c : IVec S_ 1 := constantI S_ 1 1#1
  let main_v3 : IVec S_ 1 := (fun x v => Host.reduce IntOp.andi x v reducesTo_S32x512x28x28_S_d0_1_2_3 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  main_v8
-- ==== Kernel.lean ====
abbrev S32x512x28x28 : Shape := ⟨4, ![32, 512, 28, 28]⟩
abbrev S2000x512 : Shape := ⟨2, ![2000, 512]⟩
abbrev S32x512x784 : Shape := ⟨3, ![32, 512, 784]⟩
abbrev S_ : Shape := ⟨0, ![]⟩
abbrev S2000 : Shape := ⟨1, ![2000]⟩
abbrev S2000x1 : Shape := ⟨2, ![2000, 1]⟩
abbrev S2048x512 : Shape := ⟨2, ![2048, 512]⟩
abbrev S2048x1 : Shape := ⟨2, ![2048, 1]⟩
abbrev S32x2048 : Shape := ⟨2, ![32, 2048]⟩
abbrev S8x512x784 : Shape := ⟨3, ![8, 512, 784]⟩
abbrev S1024x512 : Shape := ⟨2, ![1024, 512]⟩
abbrev S1024x1 : Shape := ⟨2, ![1024, 1]⟩
abbrev S8x1024 : Shape := ⟨2, ![8, 1024]⟩
abbrev S1x512x784 : Shape := ⟨3, ![1, 512, 784]⟩
abbrev S512x784 : Shape := ⟨2, ![512, 784]⟩
abbrev S1024x784 : Shape := ⟨2, ![1024, 784]⟩
abbrev S784 : Shape := ⟨1, ![784]⟩
abbrev S1x784 : Shape := ⟨2, ![1, 784]⟩
abbrev S1024 : Shape := ⟨1, ![1024]⟩
abbrev S1x1024 : Shape := ⟨2, ![1, 1024]⟩
abbrev S32x2000 : Shape := ⟨2, ![32, 2000]⟩

abbrev nBuf : Space → Nat
  | .hbm => 19
  | .vmem => 8
  | .smem => 0
  | _ => 0

abbrev bufTy : (tb : Table) → Fin (tcTables nBuf tb) → BufTy
  | .hbm, ⟨0, _⟩ => ⟨S32x512x28x28, .f32⟩
  | .hbm, ⟨1, _⟩ => ⟨S2000x512, .f32⟩
  | .hbm, ⟨2, _⟩ => ⟨S32x512x784, .f32⟩
  | .hbm, ⟨3, _⟩ => ⟨S2000x512, .f32⟩
  | .hbm, ⟨4, _⟩ => ⟨S_, .f32⟩
  | .hbm, ⟨5, _⟩ => ⟨S2000, .f32⟩
  | .hbm, ⟨6, _⟩ => ⟨S2000x1, .f32⟩
  | .hbm, ⟨7, _⟩ => ⟨S_, .i32⟩
  | .hbm, ⟨8, _⟩ => ⟨S_, .f32⟩
  | .hbm, ⟨9, _⟩ => ⟨S2048x512, .f32⟩
  | .hbm, ⟨10, _⟩ => ⟨S_, .i32⟩
  | .hbm, ⟨11, _⟩ => ⟨S_, .f32⟩
  | .hbm, ⟨12, _⟩ => ⟨S2048x1, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .bf16⟩
  | .hbm, ⟨17, _⟩ => ⟨S32x2048, .f32⟩
  | .hbm, ⟨18, _⟩ => ⟨S32x2000, .f32⟩
  | .local _ .vmem, ⟨0, _⟩ => ⟨S8x512x784, .f32⟩
  | .local _ .vmem, ⟨1, _⟩ => ⟨S8x512x784, .f32⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S8x1024, .f32⟩
  | .local _ .vmem, ⟨7, _⟩ => ⟨S8x1024, .f32⟩
  | _, _ => ⟨S32x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S32x512x28x28_S32x512x784 : S32x512x28x28.ShapeCasts S32x512x784
  reducesTo_S2000x512_S2000_d1 : S2000x512.ReducesTo [1] S2000
  h_S_ : 0 < S_.numel
  bcast_S2000_S2000x1_0 : S2000.BroadcastsInDim S2000x1 (![0] : Fin 1 → Fin S2000x1.rank)
  pads_S2000x512_S2048x512_0480_000 : S2000x512.Pads (![0, 0] : Fin 2 → Nat) ![48, 0] ![0, 0] S2048x512
  pads_S2000x1_S2048x1_0480_000 : S2000x1.Pads (![0, 0] : Fin 2 → Nat) ![48, 0] ![0, 0] S2048x1
  bcast_S_S2048x512 : S_.BroadcastsInDim S2048x512 (![] : Fin 0 → Fin S2048x512.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S8x512x784_S1x512x784_0_0_0 : ∀ a, (![0, 0, 0] : Fin 3 → Nat) a + S1x512x784.size a ≤ S8x512x784.size a
  h_S1x512x784 : 0 < S1x512x784.numel
  shapeCasts_S1x512x784_S512x784 : S1x512x784.ShapeCasts S512x784
  reduces_S512x784_S784 : S512x784.Reduces [0] S784
  shapeCasts_S784_S1x784 : S784.ShapeCasts S1x784
  broadcasts_S1024x1_S1024x784 : S1024x1.Broadcasts S1024x784
  broadcasts_S1x784_S1024x784 : S1x784.Broadcasts S1024x784
  reduces_S1024x784_S1024 : S1024x784.Reduces [1] S1024
  shapeCasts_S1024_S1024x1 : S1024.ShapeCasts S1024x1
  transposes_S1024x1_p1_0_S1x1024 : S1024x1.Transposes [1, 0] S1x1024
  inb_S8x1024_S1x1024_0_0 : ∀ a, (![0, 0] : Fin 2 → Nat) a + S1x1024.size a ≤ S8x1024.size a
  h_S1x1024 : 0 < S1x1024.numel
  inb_S8x512x784_S1x512x784_1_0_0 : ∀ a, (![1, 0, 0] : Fin 3 → Nat) a + S1x512x784.size a ≤ S8x512x784.size a
  inb_S8x1024_S1x1024_1_0 : ∀ a, (![1, 0] : Fin 2 → Nat) a + S1x1024.size a ≤ S8x1024.size a
  inb_S8x512x784_S1x512x784_2_0_0 : ∀ a, (![2, 0, 0] : Fin 3 → Nat) a + S1x512x784.size a ≤ S8x512x784.size a
  inb_S8x1024_S1x1024_2_0 : ∀ a, (![2, 0] : Fin 2 → Nat) a + S1x1024.size a ≤ S8x1024.size a
  inb_S8x512x784_S1x512x784_3_0_0 : ∀ a, (![3, 0, 0] : Fin 3 → Nat) a + S1x512x784.size a ≤ S8x512x784.size a
  inb_S8x1024_S1x1024_3_0 : ∀ a, (![3, 0] : Fin 2 → Nat) a + S1x1024.size a ≤ S8x1024.size a
  inb_S8x512x784_S1x512x784_4_0_0 : ∀ a, (![4, 0, 0] : Fin 3 → Nat) a + S1x512x784.size a ≤ S8x512x784.size a
  inb_S8x1024_S1x1024_4_0 : ∀ a, (![4, 0] : Fin 2 → Nat) a + S1x1024.size a ≤ S8x1024.size a
  inb_S8x512x784_S1x512x784_5_0_0 : ∀ a, (![5, 0, 0] : Fin 3 → Nat) a + S1x512x784.size a ≤ S8x512x784.size a
  inb_S8x1024_S1x1024_5_0 : ∀ a, (![5, 0] : Fin 2 → Nat) a + S1x1024.size a ≤ S8x1024.size a
  inb_S8x512x784_S1x512x784_6_0_0 : ∀ a, (![6, 0, 0] : Fin 3 → Nat) a + S1x512x784.size a ≤ S8x512x784.size a
  inb_S8x1024_S1x1024_6_0 : ∀ a, (![6, 0] : Fin 2 → Nat) a + S1x1024.size a ≤ S8x1024.size a
  inb_S8x512x784_S1x512x784_7_0_0 : ∀ a, (![7, 0, 0] : Fin 3 → Nat) a + S1x512x784.size a ≤ S8x512x784.size a
  inb_S8x1024_S1x1024_7_0 : ∀ a, (![7, 0] : Fin 2 → Nat) a + S1x1024.size a ≤ S8x1024.size a
  slices_S32x2048_S32x2000_0_0 : S32x2048.Slices ![0, 0] S32x2000
  dot_S1024x512_S512x784_S1024x784_1_0_0_1_n_n_wf : DotDims.WF S1024x512 S512x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x784.size a ≤ S32x512x784.size a
  hwx0_0 : ∀ i : grid0.Coords, EltTy.bits .f32 = 32 ∨ (Rect.block (s := S32x512x784) S8x512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x512.size a
  hwx0_1 : ∀ i : grid0.Coords, EltTy.bits .bf16 = 32 ∨ (Rect.block (s := S2048x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .f32 = 32 ∨ (Rect.block (s := S2048x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x2048.size a
  hwx0_3 : ∀ i : grid0.Coords, EltTy.bits .f32 = 32 ∨ (Rect.block (s := S32x2048) S8x1024.size (cc0_transform_3 i) (hinb0_3 i)).WholeWords (EltTy.packing .f32)

variable [Facts₀]

def dot_S1024x512_S512x784_S1024x784_1_0_0_1_n_n : DotDims S1024x512 S512x784 S1024x784 where
  lhsContracting := [1]
  rhsContracting := [0]
  lhsNonContracting := [0]
  rhsNonContracting := [1]
  lhsBatch := []
  rhsBatch := []
  wf := dot_S1024x512_S512x784_S1024x784_1_0_0_1_n_n_wf

abbrev win0_0 : Pipeline.Window sig grid0 :=
  Pipeline.Window.ofSpec (Memref.whole main_v0) S8x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x28x28 : Shape := ⟨4, ![32, 512, 28, 28]⟩
abbrev S2000x512 : Shape := ⟨2, ![2000, 512]⟩
abbrev S32x512x784 : Shape := ⟨3, ![32, 512, 784]⟩
abbrev S32x784x512 : Shape := ⟨3, ![32, 784, 512]⟩
abbrev S_ : Shape := ⟨0, ![]⟩
abbrev S32x784 : Shape := ⟨2, ![32, 784]⟩
abbrev S32x784x1 : Shape := ⟨3, ![32, 784, 1]⟩
abbrev S2000 : Shape := ⟨1, ![2000]⟩
abbrev S32x784x2000 : Shape := ⟨3, ![32, 784, 2000]⟩
abbrev S1x1x2000 : Shape := ⟨3, ![1, 1, 2000]⟩
abbrev S32x2000 : Shape := ⟨2, ![32, 2000]⟩

abbrev nBuf : Space → Nat
  | .hbm => 27
  | .vmem => 0
  | .smem => 0
  | _ => 0

abbrev bufTy : (tb : Table) → Fin (tcTables nBuf tb) → BufTy
  | .hbm, ⟨0, _⟩ => ⟨S32x512x28x28, .f32⟩
  | .hbm, ⟨1, _⟩ => ⟨S2000x512, .f32⟩
  | .hbm, ⟨2, _⟩ => ⟨S32x512x784, .f32⟩
  | .hbm, ⟨3, _⟩ => ⟨S32x784x512, .f32⟩
  | .hbm, ⟨4, _⟩ => ⟨S32x784x512, .f32⟩
  | .hbm, ⟨5, _⟩ => ⟨S_, .f32⟩
  | .hbm, ⟨6, _⟩ => ⟨S32x784, .f32⟩
  | .hbm, ⟨7, _⟩ => ⟨S32x784x1, .f32⟩
  | .hbm, ⟨8, _⟩ => ⟨S2000x512, .f32⟩
  | .hbm, ⟨9, _⟩ => ⟨S_, .f32⟩
  | .hbm, ⟨10, _⟩ => ⟨S2000, .f32⟩
  | .hbm, ⟨11, _⟩ => ⟨S32x784x2000, .f32⟩
  | .hbm, ⟨12, _⟩ => ⟨S1x1x2000, .f32⟩
  | .hbm, ⟨13, _⟩ => ⟨S32x784x2000, .f32⟩
  | .hbm, ⟨14, _⟩ => ⟨S32x784x2000, .f32⟩
  | .hbm, ⟨15, _⟩ => ⟨S32x784x2000, .f32⟩
  | .hbm, ⟨16, _⟩ => ⟨S_, .f32⟩
  | .hbm, ⟨17, _⟩ => ⟨S32x784x2000, .f32⟩
  | .hbm, ⟨18, _⟩ => ⟨S32x784x2000, .f32⟩
  | .hbm, ⟨19, _⟩ => ⟨S32x784x2000, .f32⟩
  | .hbm, ⟨20, _⟩ => ⟨S_, .f32⟩
  | .hbm, ⟨21, _⟩ => ⟨S32x784x2000, .f32⟩
  | .hbm, ⟨22, _⟩ => ⟨S32x784x2000, .f32⟩
  | .hbm, ⟨23, _⟩ => ⟨S32x784x2000, .f32⟩
  | .hbm, ⟨24, _⟩ => ⟨S_, .f32⟩
  | .hbm, ⟨25, _⟩ => ⟨S32x2000, .f32⟩
  | .hbm, ⟨26, _⟩ => ⟨S32x2000, .f32⟩
  | _, _ => ⟨S32x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S32x512x28x28_S32x512x784 : S32x512x28x28.ShapeCasts S32x512x784
  transposes_S32x512x784_S32x784x512_0_2_1 : S32x512x784.Transposes [0, 2, 1] S32x784x512
  reducesTo_S32x784x512_S32x784_d2 : S32x784x512.ReducesTo [2] S32x784
  h_S_ : 0 < S_.numel
  bcast_S32x784_S32x784x1_0_1 : S32x784.BroadcastsInDim S32x784x1 (![0, 1] : Fin 2 → Fin S32x784x1.rank)
  reducesTo_S2000x512_S2000_d1 : S2000x512.ReducesTo [1] S2000
  bcast_S2000_S1x1x2000_2 : S2000.BroadcastsInDim S1x1x2000 (![2] : Fin 1 → Fin S1x1x2000.rank)
  bcast_S32x784x1_S32x784x2000_0_1_2 : S32x784x1.BroadcastsInDim S32x784x2000 (![0, 1, 2] : Fin 3 → Fin S32x784x2000.rank)
  bcast_S1x1x2000_S32x784x2000_0_1_2 : S1x1x2000.BroadcastsInDim S32x784x2000 (![0, 1, 2] : Fin 3 → Fin S32x784x2000.rank)
  bcast_S_S32x784x2000 : S_.BroadcastsInDim S32x784x2000 (![] : Fin 0 → Fin S32x784x2000.rank)
  reducesTo_S32x784x2000_S32x2000_d1 : S32x784x2000.ReducesTo [1] S32x2000
  dot_S32x784x512_S2000x512_S32x784x2000_2_1_01_0_n_n_wf : DotDims.WF S32x784x512 S2000x512 S32x784x2000 [2] [1] [0, 1] [0] [] []

variable [Facts₀]

def dot_S32x784x512_S2000x512_S32x784x2000_2_1_01_0_n_n : DotDims S32x784x512 S2000x512 S32x784x2000 where
  lhsContracting := [2]
  rhsContracting := [1]
  lhsNonContracting := [0, 1]
  rhsNonContracting := [0]
  lhsBatch := []
  rhsBatch := []
  wf := dot_S32x784x512_S2000x512_S32x784x2000_2_1_01_0_n_n_wf

class Facts : Prop extends Facts₀ where

variable [Facts]
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.Spec.lean ====
/-
  The mathematics of the nearest-patch distance, with no program in sight.

  For a batch entry `b` and a prototype `p` both programs compute, from the 784 patches `x[b, ·, n]` (each a vector of 512
  channels) and the prototype vector `P[p, ·]`,

      − min over n of sqrt (max (‖x_n‖² + ‖P_p‖² − 2 ⟨x_n, P_p⟩) 0).

  One program forms the squared distance as `(‖x_n‖² + ‖P_p‖²) − 2 · Σ_c x_n[c] · P_p[c]`, clamps it at zero and takes the
  square root for every patch, and only then takes the minimum over the patches.  The other folds the factor `−2` into the
  prototype, forms `(‖P_p‖² + ‖x_n‖²) + Σ_c (−2 · P_p[c]) · x_n[c]`, takes the minimum over the patches FIRST, and clamps
  and takes the root once.  Two facts join them:

  * for REAL entries the two squared distances are the same real number (a real factor moves across a finite sum of
    reals; over the extended reals this is false when infinities of both signs meet, so finiteness is used here);
  * `d ↦ sqrt (max d 0)` is monotone on the extended reals, so it commutes with a minimum over a finite family, and it
    fixes `⊤`, the value the minimum starts from.
-/
import Idealize.ShloMosaic.PureOps.Ideal
import Idealize.ShloMosaic.Lib.ValueIdx
import proofs.«140451_j70574902607955_2_alg».proof.Proof.LibRealSums

noncomputable section

open scoped BigOperators

namespace Cert.MinDist

open Idealize.ShloMosaic Idealize.ShloMosaic.ValueIdx Cert.Lib.RealSums

/-! ## The four float words that occur -/

theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul, -EReal.coe_neg]; norm_num
theorem ofBits_zero : Ideal.ofBits .f32 0x00000000#32 = 0 := by simp [Ideal.ofBits, Ideal.ieee]
theorem ofBits_inf : Ideal.ofBits .f32 0x7F800000#32 = ⊤ := by simp [Ideal.ofBits, Ideal.ieee]

/-! ## Clamp at zero, then the square root: monotone, and it fixes `⊤` -/

/-- The extended reals' square root (`⊥` below zero) is monotone. -/
theorem sqrt_mono : Monotone Ideal.sqrt := by
  intro x y h
  induction x using EReal.rec with
  | bot => exact bot_le
  | top =>
    have hy : y = ⊤ := top_le_iff.mp h
    subst hy; exact le_rfl
  | coe a =>
    induction y using EReal.rec with
    | bot => exact absurd h (by simp)
    | top => exact le_top
    | coe b =>
      have hab : a ≤ b := EReal.coe_le_coe_iff.mp h
      rw [Ideal.sqrt_coe, Ideal.sqrt_coe]
      by_cases ha : a < 0
      · rw [if_pos ha]; exact bot_le
      · have hb : ¬ b < 0 := fun hb => ha (lt_of_le_of_lt hab hb)
        rw [if_neg ha, if_neg hb]
        exact EReal.coe_le_coe_iff.mpr (Real.sqrt_le_sqrt hab)

/-- A squared distance clamped at zero, then its root. -/
def post (d : EReal) : EReal := Ideal.sqrt (max d (Ideal.ofBits .f32 0x00000000#32))

theorem post_mono : Monotone post := fun _ _ h => sqrt_mono (max_le_max h le_rfl)

theorem post_top : post ⊤ = ⊤ := by
  unfold post; rw [max_eq_left le_top]; rfl

/-- Clamp-and-root commutes with a minimum over a finite family that starts from `⊤`. -/
theorem post_fold {κ : Type*} (s : Finset κ) (d : κ → EReal) :
    post (s.fold min ⊤ d) = s.fold min ⊤ (fun n => post (d n)) := by
  have h := Finset.fold_hom (op := min) (op' := min) (m := post) (b := (⊤ : EReal)) (f := d) (s := s)
    (fun x y => post_mono.map_min)
  rw [post_top] at h
  exact h.symm

/-! ## The squared distance, two ways -/

variable {ι : Type*} [Fintype ι]

/-- The squared distance with the factor `−2` folded into the prototype: `(pp + ‖x‖²) + Σ (−2 · P[c]) · x[c]`, `pp` the
    prototype's squared norm as it was handed over. -/
def distFolded (pp : EReal) (xs ps : ι → EReal) : EReal :=
  (pp + ∑ c, xs c * xs c) + ∑ c, (Ideal.ofBits .f32 0xC0000000#32 * ps c) * xs c

/-- The squared distance as the difference `(‖x‖² + ‖P‖²) − 2 · ⟨x, P⟩`; each norm is a sum started from the zero word. -/
def distDiff (xs ps : ι → EReal) : EReal :=
  ((Ideal.ofBits .f32 0x00000000#32 + ∑ c, xs c * xs c) + (Ideal.ofBits .f32 0x00000000#32 + ∑ c, ps c * ps c))
    - Ideal.ofBits .f32 0x40000000#32 * ∑ c, xs c * ps c

/-- For real entries the two are one real number. -/
theorem distFolded_eq_distDiff (xs ps : ι → EReal) (hx : ∀ c, Fin' (xs c)) (hp : ∀ c, Fin' (ps c)) :
    distFolded (Ideal.ofBits .f32 0x00000000#32 + ∑ c, ps c * ps c) xs ps = distDiff xs ps := by
  choose x' hx' using fun c => (hx c).exists_real
  choose p' hp' using fun c => (hp c).exists_real
  have exx : (∑ c, xs c * xs c) = ((∑ c, x' c * x' c : ℝ) : EReal) := by
    rw [coe_sum]; exact Finset.sum_congr rfl fun c _ => by rw [hx' c, EReal.coe_mul]
  have epp : (∑ c, ps c * ps c) = ((∑ c, p' c * p' c : ℝ) : EReal) := by
    rw [coe_sum]; exact Finset.sum_congr rfl fun c _ => by rw [hp' c, EReal.coe_mul]
  have exp : (∑ c, xs c * ps c) = ((∑ c, x' c * p' c : ℝ) : EReal) := by
    rw [coe_sum]; exact Finset.sum_congr rfl fun c _ => by rw [hx' c, hp' c, EReal.coe_mul]
  have efold : (∑ c, (Ideal.ofBits .f32 0xC0000000#32 * ps c) * xs c) = ((∑ c, (-2 * p' c) * x' c : ℝ) : EReal) := by
    rw [coe_sum]
    exact Finset.sum_congr rfl fun c _ => by rw [hx' c, hp' c, ofBits_neg_two, EReal.coe_mul, EReal.coe_mul]
  have hreal : (∑ c, (-2 * p' c) * x' c) = -2 * ∑ c, x' c * p' c := by
    rw [Finset.mul_sum]; exact Finset.sum_congr rfl fun c _ => by ring
  unfold distFolded distDiff
  rw [exx, epp, exp, efold, ofBits_zero, ofBits_two, zero_add, zero_add, ← EReal.coe_add, ← EReal.coe_add, ← EReal.coe_add,
    ← EReal.coe_mul, ← EReal.coe_sub, hreal]
  congr 1; ring

/-! ## One entry of the result, two ways -/

/-- Minimum first, then clamp and root, then the sign by `0 − ·`; against root per patch, then the minimum, then `−·`. -/
theorem entry_eq {κ : Type*} (s : Finset κ) (xs : κ → ι → EReal) (ps : ι → EReal)
    (hx : ∀ n c, Fin' (xs n c)) (hp : ∀ c, Fin' (ps c)) :
    Ideal.ofBits .f32 0x00000000#32
        - post (s.fold min (Ideal.ofBits .f32 0x7F800000#32)
            fun n => distFolded (Ideal.ofBits .f32 0x00000000#32 + ∑ c, ps c * ps c) (xs n) ps)
      = -(s.fold min (Ideal.ofBits .f32 0x7F800000#32) fun n => post (distDiff (xs n) ps)) := by
  have hneg : ∀ y : EReal, Ideal.ofBits .f32 0x00000000#32 - y = -y := fun y => by rw [ofBits_zero, zero_sub]
  rw [ofBits_inf, post_fold, hneg]
  congr 1
  exact Finset.fold_congr fun n _ => congrArg post (distFolded_eq_distDiff (xs n) ps (hx n) hp)

/-! ## The result array -/

/-- Entry `(b, c, n)` of the argument `[32, 512, 28, 28]` read as `[32, 512, 784]` (row-major: `n = 28·h + w`). -/
def pix (x : (⟨4, ![32, 512, 28, 28]⟩ : Shape).Idx → EReal) (b : Fin 32) (c : Fin 512) (n : Fin 784) : EReal :=
  x (ix4 b c (⟨n.val / 28, by have := n.isLt; omega⟩ : Fin 28) (⟨n.val % 28, Nat.mod_lt _ (by decide)⟩ : Fin 28))

/-- THE RESULT: at `(b, p)`, minus the least distance from prototype `p` to a patch of batch entry `b`. -/
def G (x : (⟨4, ![32, 512, 28, 28]⟩ : Shape).Idx → EReal) (P : (⟨2, ![2000, 512]⟩ : Shape).Idx → EReal) :
    (⟨2, ![32, 2000]⟩ : Shape).Idx → EReal := fun j =>
  -((Finset.univ : Finset (Fin 784)).fold min (Ideal.ofBits .f32 0x7F800000#32) fun n =>
      post (distDiff (fun c : Fin 512 => pix x (j 0) c n) (fun c : Fin 512 => P (ix2 (j 1) c))))

/-- The same with the minimum taken first and the factor folded in. -/
def GFolded (x : (⟨4, ![32, 512, 28, 28]⟩ : Shape).Idx → EReal) (P : (⟨2, ![2000, 512]⟩ : Shape).Idx → EReal) :
    (⟨2, ![32, 2000]⟩ : Shape).Idx → EReal := fun j =>
  Ideal.ofBits .f32 0x00000000#32
    - post ((Finset.univ : Finset (Fin 784)).fold min (Ideal.ofBits .f32 0x7F800000#32) fun n =>
        distFolded (Ideal.ofBits .f32 0x00000000#32 + ∑ c : Fin 512, P (ix2 (j 1) c) * P (ix2 (j 1) c))
          (fun c : Fin 512 => pix x (j 0) c n) (fun c : Fin 512 => P (ix2 (j 1) c)))

theorem GFolded_eq_G (x : (⟨4, ![32, 512, 28, 28]⟩ : Shape).Idx → EReal) (P : (⟨2, ![2000, 512]⟩ : Shape).Idx → EReal)
    (hx : ∀ i, Fin' (x i)) (hP : ∀ i, Fin' (P i)) : GFolded x P = G x P :=
  funext fun j => entry_eq Finset.univ (fun n c => pix x (j 0) c n) (fun c => P (ix2 (j 1) c))
    (fun _ _ => hx _) (fun _ => hP _)

/-! ## The same formula over arrays handed over ready-made -/

/-- From patches `A0 : [B, 512, 784]`, prototypes already scaled `A1 : [Q, 512]` and their squared norms as a column
    `A2 : [Q, 1]`: at `(b, q)`, `0 −` the clamped root of the least `(A2[q] + Σ_c A0[b,c,n]²) + Σ_c A1[q,c] · A0[b,c,n]` over the patches `n`.
    One block of the kernel's output is this of the blocks of its three operands; the whole output array is this of the
    three whole operand arrays. -/
def rows {B Q : ℕ} (A0 : (⟨3, ![B, 512, 784]⟩ : Shape).Idx → EReal) (A1 : (⟨2, ![Q, 512]⟩ : Shape).Idx → EReal)
    (A2 : (⟨2, ![Q, 1]⟩ : Shape).Idx → EReal) : (⟨2, ![B, Q]⟩ : Shape).Idx → EReal := fun j =>
  Ideal.ofBits .f32 0x00000000#32
    - post ((Finset.univ : Finset (Fin 784)).fold min (Ideal.ofBits .f32 0x7F800000#32) fun n =>
        (A2 (ix2 (j 1) (0 : Fin 1)) + ∑ c : Fin 512, A0 (ix3 (j 0) c n) * A0 (ix3 (j 0) c n))
          + ∑ c : Fin 512, A1 (ix2 (j 1) c) * A0 (ix3 (j 0) c n))

/-- `rows` at an entry depends only on that entry's patches, prototype row and norm: two triples of arrays that agree there,
    each at its own entry, give the same value (a block against the whole arrays; padded arrays against their operands). -/
theorem rows_congr {B Q B' Q' : ℕ} (A0 : (⟨3, ![B, 512, 784]⟩ : Shape).Idx → EReal) (A1 : (⟨2, ![Q, 512]⟩ : Shape).Idx → EReal)
    (A2 : (⟨2, ![Q, 1]⟩ : Shape).Idx → EReal) (A0' : (⟨3, ![B', 512, 784]⟩ : Shape).Idx → EReal)
    (A1' : (⟨2, ![Q', 512]⟩ : Shape).Idx → EReal) (A2' : (⟨2, ![Q', 1]⟩ : Shape).Idx → EReal)
    (b : Fin B) (q : Fin Q) (b' : Fin B') (q' : Fin Q')
    (h0 : ∀ (c : Fin 512) (n : Fin 784), A0 (ix3 b c n) = A0' (ix3 b' c n))
    (h1 : ∀ c : Fin 512, A1 (ix2 q c) = A1' (ix2 q' c)) (h2 : A2 (ix2 q (0 : Fin 1)) = A2' (ix2 q' (0 : Fin 1))) :
    rows A0 A1 A2 (ix2 b q) = rows A0' A1' A2' (ix2 b' q') := by
  unfold rows
  show Ideal.ofBits .f32 0x00000000#32
      - post ((Finset.univ : Finset (Fin 784)).fold min (Ideal.ofBits .f32 0x7F800000#32) fun n =>
          (A2 (ix2 q (0 : Fin 1)) + ∑ c : Fin 512, A0 (ix3 b c n) * A0 (ix3 b c n)) + ∑ c : Fin 512, A1 (ix2 q c) * A0 (ix3 b c n))
    = Ideal.ofBits .f32 0x00000000#32
      - post ((Finset.univ : Finset (Fin 784)).fold min (Ideal.ofBits .f32 0x7F800000#32) fun n =>
          (A2' (ix2 q' (0 : Fin 1)) + ∑ c : Fin 512, A0' (ix3 b' c n) * A0' (ix3 b' c n)) + ∑ c : Fin 512, A1' (ix2 q' c) * A0' (ix3 b' c n))
  simp only [h0, h1, h2]

end Cert.MinDist

end
-- ==== Proof.RefRead.lean ====
/-
  The reference's result, read entry by entry: it is the result array `G` of the specification.

  The reference transposes the patches to `[b, n, c]`, sums squares over the channels for both norms, contracts the channels of
  patches and prototypes, forms `(‖x‖² + ‖P‖²) − 2 · ⟨x, P⟩`, clamps, takes the root of every entry `[b, n, p]`, takes the minimum
  over the patch axis from `+∞`, and negates.  Each stage is read at an index by the generated read lemmas; the minimum over the
  patch axis is a fold of `min` over that axis's coordinates.
-/
import proofs.«140451_j70574902607955_2_alg».proof.Proof.Gen.ReferenceIdeal.Read
import proofs.«140451_j70574902607955_2_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.MinDist

/-- The transposed patches at `(b, n, c)` are the argument's entry `(b, c, n)` of its `[32, 512, 784]` reading. -/
theorem patches_apply (x : (⟨S32x512x28x28, .f32⟩ : BufTy).Contents (Elt Ideal)) (b : Fin 32) (n : Fin 784) (c : Fin 512) :
    val_main_v1 (F := Ideal) x (ix3 b n c) = pix x b c n := by
  rw [val_main_v1_apply, val_main_v0_apply]
  unfold pix
  refine congrArg x (funext fun a => Fin.ext ?_)
  have hb := b.isLt; have hn := n.isLt; have hc := c.isLt
  match a with
  | ⟨0, _⟩ => show ((b.val * 512 + c.val) * 784 + n.val) / 401408 = b.val; omega
  | ⟨1, _⟩ => show ((b.val * 512 + c.val) * 784 + n.val) / 784 % 512 = c.val; omega
  | ⟨2, _⟩ => show ((b.val * 512 + c.val) * 784 + n.val) / 28 % 28 = n.val / 28; omega
  | ⟨3, _⟩ => show ((b.val * 512 + c.val) * 784 + n.val) % 28 = n.val % 28; omega

/-- The clamped root of the squared distance at `(b, n, p)`. -/
theorem root_apply (x : (⟨S32x512x28x28, .f32⟩ : BufTy).Contents (Elt Ideal)) (P : (⟨S2000x512, .f32⟩ : BufTy).Contents (Elt Ideal))
    (b : Fin 32) (n : Fin 784) (p : Fin 2000) :
    val_main_v17 (F := Ideal) x P (ix3 b n p)
      = post (distDiff (fun c : Fin 512 => pix x b c n) (fun c : Fin 512 => P (ix2 p c))) := by
  have e3 : ∀ k : Fin 512, idx_main_v3 (idx_main_v4 (idx_main_v9 (ix3 b n p))) k = ix3 b n k := fun k =>
    funext fun a => Fin.ext (by match a with | ⟨0, _⟩ => rfl | ⟨1, _⟩ => rfl | ⟨2, _⟩ => rfl)
  have e6 : ∀ k : Fin 512, idx_main_v6 (idx_main_v8 (idx_main_v10 (ix3 b n p))) k = ix2 p k := fun k =>
    funext fun a => Fin.ext (by match a with | ⟨0, _⟩ => rfl | ⟨1, _⟩ => rfl)
  have el : ∀ k : Fin 512, lidx_main_v7 (ix3 b n p) k = ix3 b n k := fun k =>
    funext fun a => Fin.ext (by match a with | ⟨0, _⟩ => rfl | ⟨1, _⟩ => rfl | ⟨2, _⟩ => rfl)
  have er : ∀ k : Fin 512, ridx_main_v7 (ix3 b n p) k = ix2 p k := fun k =>
    funext fun a => Fin.ext (by match a with | ⟨0, _⟩ => rfl | ⟨1, _⟩ => rfl)
  rw [val_main_v17_apply, val_main_v16_apply, val_main_v14_apply, val_main_v11_apply, val_main_v13_apply, val_main_v9_apply,
    val_main_v4_apply, val_main_v3_apply, val_main_v10_apply, val_main_v8_apply, val_main_v6_apply, val_main_v7_apply,
    val_main_v12_apply, val_main_cst_1_apply, val_main_v15_apply, val_main_cst_2_apply, val_main_cst_apply, val_main_cst_0_apply]
  simp only [e3, e6, el, er, val_main_v2_apply, val_main_v5_apply, patches_apply, Ideal.hostUnary_sqrt_def, Ideal.maximumf_def,
    Ideal.subf_def, Ideal.addf_def, Ideal.mulf_def, Ideal.ofBits_def]
  rfl

/-- Entry `(b, p)` with the patch coordinate the minimum dropped put back: `(b, n, p)`. -/
theorem lift_patch (h : S32x784x2000.Reduces [1] S32x2000) (b : Fin 32) (p : Fin 2000) (n : Fin (S32x784x2000.size 1)) :
    h.lift (ix2 b p) n = ix3 b (⟨n.val, n.isLt⟩ : Fin 784) p := by
  funext a; apply Fin.ext
  fin_cases a <;> rfl

/-- THE REFERENCE'S RESULT is the specification's array. -/
theorem result_eq (x : (⟨S32x512x28x28, .f32⟩ : BufTy).Contents (Elt Ideal)) (P : (⟨S2000x512, .f32⟩ : BufTy).Contents (Elt Ideal)) :
    val_main_v19 (F := Ideal) x P = G x P := by
  funext j
  obtain ⟨b, p, rfl⟩ : ∃ (b : Fin 32) (p : Fin 2000), j = ix2 b p := ⟨j 0, j 1, eq_ix2 j⟩
  have hred : S32x784x2000.Reduces [1] S32x2000 := by decide
  rw [val_main_v19_apply]
  unfold val_main_v18
  rw [Host.reduce_eq_fold_single FloatOps.minimumf _ _ reducesTo_S32x784x2000_S32x2000_d1 hred h_S_]
  show -(Finset.fold min _ _ _) = _
  unfold G
  refine congrArg (fun z => -z) ?_
  refine Finset.fold_congr fun n _ => ?_
  show val_main_v17 (F := Ideal) x P (hred.lift (ix2 b p) n) = _
  rw [lift_patch hred b p n]
  exact root_apply x P b ⟨n.val, n.isLt⟩ p

end Cert.ReferenceIdeal.RefValue

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelRow.lean ====
/-
  One batch entry's row of the kernel's output block, read entry by entry.

  For each of the eight batch entries of a block the body computes, from the prototype block `v1` (1024 prototypes by 512
  channels, already scaled by −2), their squared norms `v3` (a column) and the entry's patches `xv` (512 channels by 784
  patches): the matrix `raw[q, n] = (v3[q] + Σ_c xv[c, n]²) + Σ_c v1[q, c] · xv[c, n]`, then per prototype `q` the minimum of
  `raw[q, ·]` from `+∞`, clamped at zero, its square root, and its negative as `0 − ·`, laid out as one row of 1024 entries.
  The body's text for the eight entries is cut at different places, but the eight terms are one function.
-/
import proofs.«140451_j70574902607955_2_alg».proof.Proof.Gen.KernelIdeal.Skeleton
import proofs.«140451_j70574902607955_2_alg».proof.Proof.LibColumns
import proofs.«140451_j70574902607955_2_alg».proof.Proof.LibDotCols
import proofs.«140451_j70574902607955_2_alg».proof.Proof.Spec
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-! ## The eight entries' terms are one function: the matrix of squared distances, then its row of results -/

section AnyFloats
variable {F : FTy → Type} [FloatOps F]

theorem entry0 (v0 : Vec F S1024x512 .bf16) (v2 : Vec F S1024x1 .f32) (x : Vec F S1x512x784 .f32) :
    k0_pay4 v0 v2 x = k0_pay9 (k0_pay8 (k0_pay2 v0) (k0_pay3 v2) x) := rfl
theorem entry1 (v0 : Vec F S1024x512 .bf16) (v2 : Vec F S1024x1 .f32) (x : Vec F S1x512x784 .f32) :
    k0_pay6 (k0_pay5 v0 v2 x) = k0_pay9 (k0_pay8 (k0_pay2 v0) (k0_pay3 v2) x) := rfl
theorem entry2 (v1 : FVec F S1024x512 .bf16) (v3 : FVec F S1024x1 .f32) (x : Vec F S1x512x784 .f32) :
    k0_pay7 v1 v3 x = k0_pay9 (k0_pay8 v1 v3 x) := rfl
theorem entry4 (v1 : FVec F S1024x512 .bf16) (v3 : FVec F S1024x1 .f32) (x : Vec F S1x512x784 .f32) :
    k0_pay10 v1 v3 x = k0_pay9 (k0_pay8 v1 v3 x) := rfl
theorem entry5 (v1 : FVec F S1024x512 .bf16) (v3 : FVec F S1024x1 .f32) (x : Vec F S1x512x784 .f32) :
    k0_pay14 (k0_pay12 v1 x) (k0_pay13 v3 x) = k0_pay9 (k0_pay8 v1 v3 x) := rfl
theorem entry6 (v1 : FVec F S1024x512 .bf16) (v3 : FVec F S1024x1 .f32) (x : Vec F S1x512x784 .f32) :
    k0_pay15 v1 v3 x = k0_pay9 (k0_pay8 v1 v3 x) := rfl
theorem entry7 (v1 : FVec F S1024x512 .bf16) (v3 : FVec F S1024x1 .f32) (x : Vec F S1x512x784 .f32) :
    k0_pay1 (k0_pay17 v1 x) (k0_pay18 x) (k0_pay19 v3) = k0_pay9 (k0_pay8 v1 v3 x) := rfl

end AnyFloats

/-! ## The matrix of squared distances at an entry -/

/-- Patch `n` put back as the coordinate a sum over the channels dropped: `(c, n)`. -/
theorem lift_chan (h : S512x784.Reduces [0] S784) (n : Fin 784) (c : Fin (S512x784.size 0)) :
    h.lift (ix1 n) c = ix2 (⟨c.val, c.isLt⟩ : Fin 512) n := by
  funext a; apply Fin.ext
  fin_cases a <;> rfl

/-- Prototype `q` with the patch coordinate a minimum over the patches dropped put back: `(q, n)`. -/
theorem lift_patch (h : S1024x784.Reduces [1] S1024) (q : Fin 1024) (n : Fin (S1024x784.size 1)) :
    h.lift (ix1 q) n = ix2 q (⟨n.val, n.isLt⟩ : Fin 784) := by
  funext a; apply Fin.ext
  fin_cases a <;> rfl

theorem dot_plain : dot_S1024x512_S512x784_S1024x784_1_0_0_1_n_n = DotDims.plain 1024 512 784 := rfl

/-- A sum over the channels of a `[512, 784]` array from the zero word, at patch `n`. -/
theorem colSum_apply (src : FVec Ideal S512x784 .f32) (h : S512x784.Reduces [0] S784) (hφ : FKind.Formats .f32)
    (hacc : (0x00000000#32 : BitVec 32) = 0x00000000#32) (n : Fin 784) :
    multiReduction .add [0] S784 src 0x00000000#32 h hφ hacc (ix1 n) = ∑ c : Fin 512, src (ix2 c n) :=
  (Ideal.multiReduction_add_single src 0x00000000#32 h hφ hacc (ix1 n)).trans
    (Finset.sum_congr rfl fun c _ => congrArg src (lift_chan h n c))

/-- A minimum over the patches of a `[1024, 784]` array from the word of `+∞`, at prototype `q`. -/
theorem rowMin_apply (src : FVec Ideal S1024x784 .f32) (h : S1024x784.Reduces [1] S1024) (hφ : FKind.Formats .f32)
    (hacc : (0x7F800000#32 : BitVec 32) = 0x7F800000#32) (q : Fin 1024) :
    multiReduction .minimumf [1] S1024 src 0x7F800000#32 h hφ hacc (ix1 q)
      = (Finset.univ : Finset (Fin 784)).fold min (Ideal.ofBits .f32 0x7F800000#32) fun n => src (ix2 q n) :=
  (multiReduction_minimumf_single src 0x7F800000#32 h hφ hacc (ix1 q)).trans
    (Finset.fold_congr fun n _ => congrArg src (lift_patch h q n))

theorem pay8_apply (v1 : FVec Ideal S1024x512 .bf16) (v3 : FVec Ideal S1024x1 .f32) (xv : Vec Ideal S1x512x784 .f32)
    (q : Fin 1024) (n : Fin 784) :
    k0_pay8 (F := Ideal) v1 v3 xv (ix2 q n)
      = (v3 (ix2 q (0 : Fin 1)) + ∑ c : Fin 512, xv (ix3 (0 : Fin 1) c n) * xv (ix3 (0 : Fin 1) c n))
        + ∑ c : Fin 512, v1 (ix2 q c) * xv (ix3 (0 : Fin 1) c n) := by
  have hx : ∀ c : Fin 512, shapeCast S512x784 xv shapeCasts_S1x512x784_S512x784 (ix2 c n) = xv (ix3 (0 : Fin 1) c n) :=
    fun c => shapeCast_1ab_ab_apply xv _ c n
  unfold k0_pay8
  dsimp only
  rw [addf_apply, addf_apply, broadcastTo_a1_ab_apply, broadcastTo_1b_ab_apply, shapeCast_a_1a_apply, colSum_apply]
  refine congrArg₂ (· + ·) (congrArg (v3 (ix2 q (0 : Fin 1)) + ·) (Finset.sum_congr rfl fun c _ => ?_)) ?_
  · rw [mulf_apply, hx]
  · refine (Cert.Lib.DotCols.matmul_cols_apply _ dot_plain none v1 _ q n).trans (Finset.sum_congr rfl fun c _ => ?_)
    rw [truncf_apply, hx]

theorem sqrt_apply {s : Shape} {φ : FTy} (a : FVec Ideal s φ) (i : s.Idx) : Idealize.ShloMosaic.sqrt a i = Ideal.sqrt (a i) := rfl

/-- From the matrix of squared distances to the row of results: per prototype the minimum over the patches, clamped, its
    root, negated. -/
theorem pay9_apply (r : FVec Ideal S1024x784 .f32) (u : Fin 1) (q : Fin 1024) :
    k0_pay9 (F := Ideal) r (ix2 u q)
      = Ideal.ofBits .f32 0x00000000#32
        - MinDist.post ((Finset.univ : Finset (Fin 784)).fold min (Ideal.ofBits .f32 0x7F800000#32) fun n => r (ix2 q n)) := by
  unfold k0_pay9
  dsimp only
  rw [subf_apply, broadcast_apply, transpose_ix2_apply, sqrt_apply, maximumf_apply, broadcast_apply, shapeCast_a_a1_apply,
    rowMin_apply]
  rfl

end Cert.KernelIdeal.Row

end
-- ==== Proof.KernelBlock.lean ====
/-
  What the body leaves in the output block, as one function of the three operand blocks.

  The body stores eight rows, one per batch entry of the block; row `b` is the row of results computed from the whole prototype
  block, the whole column of squared norms, and the `b`-th slab of the patch block.  So the block the body leaves is the
  specification's `rows` of the three operand blocks.
-/
import proofs.«140451_j70574902607955_2_alg».proof.Proof.Gen.KernelIdeal.Frame
import proofs.«140451_j70574902607955_2_alg».proof.Proof.KernelRow

noncomputable section

open scoped BigOperators

namespace Cert.KernelIdeal.Block

open Cert.KernelIdeal Cert.KernelIdeal.Gen Cert.KernelIdeal.Row Idealize.ShloMosaic Idealize.ShloMosaic.ValueIdx

theorem hz2 : (![0, 0] : Fin 2 → Nat) = fun _ => 0 := funext fun a => by fin_cases a <;> rfl

/-- Row `u` (the only one) of the stored piece of batch entry `b` is row `b` of the block. -/
theorem emb_row (b : Fin 8) (inb : ∀ a, (![b.val, 0] : Fin 2 → Nat) a + S1x1024.size a ≤ S8x1024.size a) (u : Fin 1) (q : Fin 1024) :
    (Rect.unit (s := S8x1024) ![b.val, 0] S1x1024.size inb).emb (ix2 u q) = ix2 b q := by
  funext a; apply Fin.ext
  have hu : u.val = 0 := by omega
  match a with
  | ⟨0, _⟩ => show b.val + 1 * u.val = b.val; omega
  | ⟨1, _⟩ => show 0 + 1 * q.val = q.val; omega

/-- The loaded slab of batch entry `b` at `(0, c, n)` is the patch block at `(b, c, n)`. -/
theorem idx_slab (b : Fin 8) (inb : ∀ a, (![b.val, 0, 0] : Fin 3 → Nat) a + S1x512x784.size a ≤ S8x512x784.size a)
    (c : Fin 512) (n : Fin 784) :
    (Rect.unit (s := S8x512x784) ![b.val, 0, 0] S1x512x784.size inb).idx (ix3 (0 : Fin 1) c n) = ix3 b c n := by
  funext a; apply Fin.ext
  match a with
  | ⟨0, _⟩ => show b.val + 1 * 0 = b.val; omega
  | ⟨1, _⟩ => show 0 + 1 * c.val = c.val; omega
  | ⟨2, _⟩ => show 0 + 1 * n.val = n.val; omega

/-- The row of results from a slab `xv` that is slab `b` of the patch block is row `b` of `rows`. -/
theorem row_of_slab (x0 : Vec Ideal S8x512x784 .f32) (x1 : Vec Ideal S1024x512 .bf16) (x2 : Vec Ideal S1024x1 .f32)
    (xv : Vec Ideal S1x512x784 .f32) (b : Fin 8) (hxv : ∀ (c : Fin 512) (n : Fin 784), xv (ix3 (0 : Fin 1) c n) = x0 (ix3 b c n))
    (u : Fin 1) (q : Fin 1024) :
    k0_pay9 (F := Ideal) (k0_pay8 (k0_pay2 (View.ld x1 r0_0)) (k0_pay3 (View.ld x2 r0_1)) xv) (ix2 u q)
      = MinDist.rows x0 x1 x2 (ix2 b q) := by
  have h1 : ∀ c : Fin 512, k0_pay2 (F := Ideal) (View.ld x1 r0_0) (ix2 q c) = x1 (ix2 q c) := fun c => by
    unfold k0_pay2; rw [shapeCast_self, View.ld_unit_zero (S := S1024x512) hz2]
  have h3 : k0_pay3 (F := Ideal) (View.ld x2 r0_1) (ix2 q (0 : Fin 1)) = x2 (ix2 q (0 : Fin 1)) := by
    unfold k0_pay3; rw [shapeCast_self, View.ld_unit_zero (S := S1024x1) hz2]
  rw [pay9_apply]
  unfold MinDist.rows
  refine congrArg (fun z => Ideal.ofBits .f32 0x00000000#32 - MinDist.post z) (Finset.fold_congr fun n _ => ?_)
  rw [pay8_apply, h3]
  simp only [h1, hxv]

/-- THE BLOCK the body leaves. -/
theorem out_block (x0 : Vec Ideal S8x512x784 .f32) (x1 : Vec Ideal S1024x512 .bf16) (x2 : Vec Ideal S1024x1 .f32) :
    out0_3 (F := Ideal) x0 x1 x2 = MinDist.rows x0 x1 x2 := by
  funext y
  unfold out0_3
  refine View.canon_apply_of_pieces (Val := Elt Ideal) (MinDist.rows x0 x1 x2) _ ?_ y (cover0_3 _ _ _ _ _ _ _ _ y)
  intro p hp x
  simp only [List.mem_cons, List.not_mem_nil, or_false] at hp
  rcases hp with rfl | rfl | rfl | rfl | rfl | rfl | rfl | rfl
  · obtain ⟨u, q, rfl⟩ : ∃ (u : Fin 1) (q : Fin 1024), x = ix2 u q := ⟨x 0, x 1, eq_ix2 x⟩
    rw [emb_row ⟨7, by decide⟩, entry7]
    exact row_of_slab x0 x1 x2 _ ⟨7, by decide⟩ (fun c n => congrArg x0 (idx_slab ⟨7, by decide⟩ _ c n)) u q
  · obtain ⟨u, q, rfl⟩ : ∃ (u : Fin 1) (q : Fin 1024), x = ix2 u q := ⟨x 0, x 1, eq_ix2 x⟩
    rw [emb_row ⟨6, by decide⟩, entry6]
    exact row_of_slab x0 x1 x2 _ ⟨6, by decide⟩ (fun c n => congrArg x0 (idx_slab ⟨6, by decide⟩ _ c n)) u q
  · obtain ⟨u, q, rfl⟩ : ∃ (u : Fin 1) (q : Fin 1024), x = ix2 u q := ⟨x 0, x 1, eq_ix2 x⟩
    rw [emb_row ⟨5, by decide⟩, entry5]
    exact row_of_slab x0 x1 x2 _ ⟨5, by decide⟩ (fun c n => congrArg x0 (idx_slab ⟨5, by decide⟩ _ c n)) u q
  · obtain ⟨u, q, rfl⟩ : ∃ (u : Fin 1) (q : Fin 1024), x = ix2 u q := ⟨x 0, x 1, eq_ix2 x⟩
    rw [emb_row ⟨4, by decide⟩, entry4]
    exact row_of_slab x0 x1 x2 _ ⟨4, by decide⟩ (fun c n => congrArg x0 (idx_slab ⟨4, by decide⟩ _ c n)) u q
  · obtain ⟨u, q, rfl⟩ : ∃ (u : Fin 1) (q : Fin 1024), x = ix2 u q := ⟨x 0, x 1, eq_ix2 x⟩
    rw [emb_row ⟨3, by decide⟩]
    exact row_of_slab x0 x1 x2 _ ⟨3, by decide⟩ (fun c n => congrArg x0 (idx_slab ⟨3, by decide⟩ _ c n)) u q
  · obtain ⟨u, q, rfl⟩ : ∃ (u : Fin 1) (q : Fin 1024), x = ix2 u q := ⟨x 0, x 1, eq_ix2 x⟩
    rw [emb_row ⟨2, by decide⟩, entry2]
    exact row_of_slab x0 x1 x2 _ ⟨2, by decide⟩ (fun c n => congrArg x0 (idx_slab ⟨2, by decide⟩ _ c n)) u q
  · obtain ⟨u, q, rfl⟩ : ∃ (u : Fin 1) (q : Fin 1024), x = ix2 u q := ⟨x 0, x 1, eq_ix2 x⟩
    rw [emb_row ⟨1, by decide⟩, entry1]
    exact row_of_slab x0 x1 x2 _ ⟨1, by decide⟩ (fun c n => congrArg x0 (idx_slab ⟨1, by decide⟩ _ c n)) u q
  · obtain ⟨u, q, rfl⟩ : ∃ (u : Fin 1) (q : Fin 1024), x = ix2 u q := ⟨x 0, x 1, eq_ix2 x⟩
    rw [emb_row ⟨0, by decide⟩, entry0]
    exact row_of_slab x0 x1 x2 _ ⟨0, by decide⟩ (fun c n => congrArg x0 (idx_slab ⟨0, by decide⟩ _ c n)) u q

end Cert.KernelIdeal.Block

end
-- ==== Proof.HostPre.lean ====
/-
  The three arrays the kernel's region is launched on, as functions of the program's two arguments, read at an index.

  Before the region the host reshapes the patches `[32, 512, 28, 28]` to `[32, 512, 784]`; sums the squares of every prototype over
  its channels and pads the column of 2000 sums with 48 zero rows; and pads the prototypes `[2000, 512]` with 48 zero rows,
  multiplies every entry by −2 and changes the float format (the identity on the extended reals).  Only the first 2000 rows
  of the two padded arrays matter for the result, and there a padded array reads its operand.
-/
import proofs.«140451_j70574902607955_2_alg».proof.Proof.Gen.KernelIdeal.Frame
import proofs.«140451_j70574902607955_2_alg».proof.Proof.Spec
import Idealize.ShloMosaic.Lib.StableHlo.Run
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.KernelIdeal.HostPre

open Cert.KernelIdeal Cert.KernelIdeal.Gen Idealize.ShloMosaic Idealize.ShloMosaic.TcCoe Idealize.SL.Sem Idealize.ShloMosaic.StableHlo
open Idealize.ShloMosaic.ValueIdx

/-! ## The three arrays -/

/-- The patches, `[32, 512, 784]`. -/
def patchesArr (x : (⟨S32x512x28x28, .f32⟩ : BufTy).Contents (Elt Ideal)) : S32x512x784.Idx → EReal :=
  shapeCast S32x512x784 x shapeCasts_S32x512x28x28_S32x512x784

/-- The prototypes padded to 2048 rows and scaled by −2. -/
def protoArr (P : (⟨S2000x512, .f32⟩ : BufTy).Contents (Elt Ideal)) : S2048x512.Idx → EReal :=
  truncf .bf16
    (mulf (broadcastInDim S2048x512 ![] bcast_S_S2048x512 (constant (F := Ideal) S_ .f32 0xC0000000#32))
      (pad S2048x512 ![0, 0] ![48, 0] ![0, 0] P (sitofp (F := Ideal) .f32 (constantI S_ 32 0#32))
        pads_S2000x512_S2048x512_0480_000 h_S_))
    bitsLt_bf16_f32

/-- The prototypes' squared norms as a column padded to 2048 rows. -/
def normArr (P : (⟨S2000x512, .f32⟩ : BufTy).Contents (Elt Ideal)) : S2048x1.Idx → EReal :=
  pad S2048x1 ![0, 0] ![48, 0] ![0, 0]
    (broadcastInDim S2000x1 ![0] bcast_S2000_S2000x1_0
      (Host.reduceAdd (F := Ideal) (mulf P P) (constant (F := Ideal) S_ .f32 0x00000000#32) reducesTo_S2000x512_S2000_d1 h_S_))
    (sitofp (F := Ideal) .f32 (constantI S_ 32 0#32)) pads_S2000x1_S2048x1_0480_000 h_S_

/-! ## The region finds them -/

variable (m : (ℓ : Loc nD τ sig) → Buf (Elt Ideal) ℓ)

theorem V_patches (c : Dev nD) :
    (V m c main_v0 : S32x512x784.Idx → EReal) = patchesArr (m ((c : Thread nD τ).loc main_arg0)) := by
  dsimp only [V, V0]
  simp only [hostOps0, hostOps0_1, hostOps0_2, hostOps0_3, hostOps0_4, List.flatten_cons, List.flatten_nil, List.append_nil,
    List.cons_append, List.nil_append]
  after_results
  rfl

theorem V_proto (c : Dev nD) :
    (V m c main_v8 : S2048x512.Idx → EReal) = protoArr (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  rfl

theorem V_norm (c : Dev nD) :
    (V m c main_v5 : S2048x1.Idx → EReal) = normArr (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  rfl

/-! ## Read at an index -/

theorem patchesArr_apply (x : (⟨S32x512x28x28, .f32⟩ : BufTy).Contents (Elt Ideal)) (b : Fin 32) (c : Fin 512) (n : Fin 784) :
    patchesArr x (ix3 b c n) = MinDist.pix x b c n := by
  unfold patchesArr MinDist.pix
  refine shapeCast_apply x _ _ _ ?_
  rw [Shape.rowMajor_val_four, Shape.rowMajor_val_three]
  have hn := n.isLt
  show ((b.val * 512 + c.val) * 28 + n.val / 28) * 28 + n.val % 28 = (b.val * 512 + c.val) * 784 + n.val
  omega

theorem protoArr_apply (P : (⟨S2000x512, .f32⟩ : BufTy).Contents (Elt Ideal)) (q : Fin 2048) (hq : q.val < 2000) (c : Fin 512) :
    protoArr P (ix2 q c) = Ideal.ofBits .f32 0xC0000000#32 * P (ix2 (⟨q.val, hq⟩ : Fin 2000) c) := by
  unfold protoArr
  rw [truncf_apply, mulf_apply,
    pad_apply_of_inside _ _ _ P _ pads_S2000x512_S2048x512_0480_000 h_S_ (ix2 q c) (ix2 (⟨q.val, hq⟩ : Fin 2000) c) (fun a => by
      match a with
      | ⟨0, _⟩ => show q.val = 0 + q.val * (0 + 1); omega
      | ⟨1, _⟩ => show c.val = 0 + c.val * (0 + 1); omega)]
  rfl

/-- A prototype's squared norm as the host sums it: from the zero word. -/
theorem sumSq_apply (y : FVec Ideal S2000x512 .f32) (p : Fin 2000) :
    Host.reduceAdd (F := Ideal) y (constant (F := Ideal) S_ .f32 0x00000000#32) reducesTo_S2000x512_S2000_d1 h_S_ (ix1 p)
      = Ideal.ofBits .f32 0x00000000#32 + ∑ c : Fin 512, y (ix2 p c) := by
  simp only [Host.reduceAdd, Ideal.hostReduceAdd_def]
  rw [Ideal.hostReduceAdd_single reducesTo_S2000x512_S2000_d1 (by decide)]
  refine congrArg (_ + ·) (Finset.sum_congr rfl fun k _ => ?_)
  exact congrArg y (funext fun a => Fin.ext (by match a with | ⟨0, _⟩ => rfl | ⟨1, _⟩ => rfl))

theorem normArr_apply (P : (⟨S2000x512, .f32⟩ : BufTy).Contents (Elt Ideal)) (q : Fin 2048) (hq : q.val < 2000) :
    normArr P (ix2 q (0 : Fin 1))
      = Ideal.ofBits .f32 0x00000000#32 + ∑ c : Fin 512, P (ix2 (⟨q.val, hq⟩ : Fin 2000) c) * P (ix2 (⟨q.val, hq⟩ : Fin 2000) c) := by
  unfold normArr
  rw [pad_apply_of_inside _ _ _ _ _ pads_S2000x1_S2048x1_0480_000 h_S_ (ix2 q (0 : Fin 1)) (ix2 (⟨q.val, hq⟩ : Fin 2000) (0 : Fin 1))
      (fun a => by
        match a with
        | ⟨0, _⟩ => show q.val = 0 + q.val * (0 + 1); omega
        | ⟨1, _⟩ => show 0 = 0 + 0 * (0 + 1); omega),
    broadcastInDim_apply _ bcast_S2000_S2000x1_0 _ _ (ix1 (⟨q.val, hq⟩ : Fin 2000)) (fun a => by
        match a with
        | ⟨0, _⟩ => show q.val = if (2000 : Nat) = 1 then 0 else q.val; rw [if_neg (by decide)]),
    sumSq_apply]
  rfl

end Cert.KernelIdeal.HostPre

end
-- ==== Proof.KernelArray.lean ====
/-
  From blocks to the array: what the kernel's output array holds when the region ends.

  The grid has 4 × 2 points; point `(i, j)` takes batch entries `8i … 8i+7` of the patches (all channels, all patches), prototype
  rows `1024j … 1024j+1023` of the scaled prototypes and of the column of norms, and writes back the block of rows `8i … 8i+7`,
  columns `1024j … 1024j+1023` of the `[32, 2048]` output.  The block a point writes back is `rows` of its three operand blocks,
  and an entry of `rows` depends only on its own batch entry and prototype row: so the block is the block of `rows` of the three
  whole arrays.  The 8 blocks tile the output, so the output array ends holding `rows` of the three whole arrays.
-/
import proofs.«140451_j70574902607955_2_alg».proof.Proof.KernelBlock
import proofs.«140451_j70574902607955_2_alg».proof.Proof.HostPre
import Idealize.ShloMosaic.Lib.Pipeline.Value

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: the patches move with the output's rows, the prototypes and norms with its
    columns, and no other axis is cut. -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) ≤ 3 ∧ win0_3.index t (1 : Fin 2) ≤ 1 :=
  (by decide +kernel : ∀ t : Fin grid0.N, _)

/-- Every block of the output is some point's. -/
theorem idx_onto : ∀ (q0 : Fin 4) (q1 : Fin 2), ∃ t : Fin cfg0.N, win0_3.index t = ![q0.val, q1.val] :=
  (by decide +kernel : ∀ (q0 : Fin 4) (q1 : Fin 2), ∃ t : Fin grid0.N, win0_3.index t = ![q0.val, q1.val])

/-- WHAT POINT `t` WRITES BACK is block `t` of `rows` of the three arrays as the region finds them. -/
theorem flushed_eq (c : Dev nD) (t : Fin cfg0.N) :
    (dats m 0 c).flushed 3 t
      = ((cfg0.win 3).blk t).view.read (Elt Ideal) (MinDist.rows (V m c main_v0) (V m c main_v8) (V m c main_v5)) := by
  show (cfg0.win 3).cut (grid0.coords t) ((dats m 0 c).after 3 t) = _
  rw [after0_3, Block.out_block]
  obtain ⟨e0, e1, e2, e3, e4, e5, e6, e7, e8⟩ := idx_facts t
  funext j
  obtain ⟨r, q, rfl⟩ : ∃ (r : Fin 8) (q : Fin 1024), j = ix2 r q := ⟨j 0, j 1, eq_ix2 j⟩
  have hr := r.isLt; have hq := q.isLt
  have hemb : ((cfg0.win 3).blk t).view.emb (ix2 r q)
      = ix2 (⟨win0_3.index t (0 : Fin 2) * 8 + r.val, by omega⟩ : Fin 32) (⟨win0_3.index t (1 : Fin 2) * 1024 + q.val, by omega⟩ : Fin 2048) := by
    funext a; apply Fin.ext
    match a with
    | ⟨0, _⟩ => show win0_3.index t (0 : Fin 2) * 8 + 1 * r.val = win0_3.index t (0 : Fin 2) * 8 + r.val; omega
    | ⟨1, _⟩ => show win0_3.index t (1 : Fin 2) * 1024 + 1 * q.val = win0_3.index t (1 : Fin 2) * 1024 + q.val; omega
  show MinDist.rows (iblk m c 0 t) (iblk m c 1 t) (iblk m c 2 t) (ix2 r q)
    = MinDist.rows (V m c main_v0) (V m c main_v8) (V m c main_v5) (((cfg0.win 3).blk t).view.emb (ix2 r q))
  rw [hemb]
  refine MinDist.rows_congr (iblk m c 0 t) (iblk m c 1 t) (iblk m c 2 t) (V m c main_v0) (V m c main_v8) (V m c main_v5) r q _ _ ?_ ?_ ?_
  · intro ch n
    show V m c main_v0 (((cfg0.win 0).blk t).view.emb (ix3 r ch n)) = V m c main_v0 _
    refine congrArg (V m c main_v0) (funext fun a => Fin.ext ?_)
    have hc := ch.isLt; have hn := n.isLt
    match a with
    | ⟨0, _⟩ => show win0_0.index t (0 : Fin 3) * 8 + 1 * r.val = win0_3.index t (0 : Fin 2) * 8 + r.val; omega
    | ⟨1, _⟩ => show win0_0.index t (1 : Fin 3) * 512 + 1 * ch.val = ch.val; omega
    | ⟨2, _⟩ => show win0_0.index t (2 : Fin 3) * 784 + 1 * n.val = n.val; omega
  · intro ch
    show V m c main_v8 (((cfg0.win 1).blk t).view.emb (ix2 q ch)) = V m c main_v8 _
    refine congrArg (V m c main_v8) (funext fun a => Fin.ext ?_)
    have hc := ch.isLt
    match a with
    | ⟨0, _⟩ => show win0_1.index t (0 : Fin 2) * 1024 + 1 * q.val = win0_3.index t (1 : Fin 2) * 1024 + q.val; omega
    | ⟨1, _⟩ => show win0_1.index t (1 : Fin 2) * 512 + 1 * ch.val = ch.val; omega
  · show V m c main_v5 (((cfg0.win 2).blk t).view.emb (ix2 q (0 : Fin 1))) = V m c main_v5 _
    refine congrArg (V m c main_v5) (funext fun a => Fin.ext ?_)
    match a with
    | ⟨0, _⟩ => show win0_2.index t (0 : Fin 2) * 1024 + 1 * q.val = win0_3.index t (1 : Fin 2) * 1024 + q.val; omega
    | ⟨1, _⟩ => show win0_2.index t (1 : Fin 2) * 1 + 1 * 0 = 0; omega

/-- An index of the output is in point `t`'s block iff each coordinate is in the block's range on its axis. -/
theorem mem_blk (t : Fin cfg0.N) (i : S32x2048.Idx) :
    i ∈ ((cfg0.win 3).blk t).view.set
      ↔ ∀ a : Fin 2, win0_3.index t a * S8x1024.size a ≤ (i a).val ∧ (i a).val < win0_3.index t a * S8x1024.size a + S8x1024.size a := by
  show i ∈ ((View.whole main_v9).slice (win0_3.rect t)).set ↔ _
  rw [View.set_slice_whole, Rect.mem_set_unit]
  exact Iff.rfl

/-- The blocks tile the output: entry `(r, p)` is in the block of the point with coordinates `(r / 8, p / 1024)`. -/
theorem cover (i : S32x2048.Idx) : ∃ t : Fin cfg0.N, (cfg0.win 3).flush t = true ∧ i ∈ ((cfg0.win 3).blk t).view.set := by
  have hi0 : (i 0).val < 32 := (i 0).isLt
  have hi1 : (i 1).val < 2048 := (i 1).isLt
  obtain ⟨t, ht⟩ := idx_onto ⟨(i 0).val / 8, by omega⟩ ⟨(i 1).val / 1024, by omega⟩
  have q0 : win0_3.index t (0 : Fin 2) = (i 0).val / 8 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1024 ≤ (i 1).val ∧ (i 1).val < win0_3.index t (1 : Fin 2) * 1024 + 1024; omega

/-- THE OUTPUT ARRAY after the run: `rows` of the reshaped patches, the padded scaled prototypes and the padded norms. -/
theorem final (c : Dev nD) :
    (dats m 0 c).arrAt 3 cfg0.N
      = MinDist.rows (HostPre.patchesArr (m ((c : Thread nD τ).loc main_arg0))) (HostPre.protoArr (m ((c : Thread nD τ).loc main_arg1)))
          (HostPre.normArr (m ((c : Thread nD τ).loc main_arg1))) := by
  rw [← HostPre.V_patches m c, ← HostPre.V_proto m c, ← HostPre.V_norm m c]
  exact (dats m 0 c).arrAt_eq_of_cover 3 _ (fun t _ => flushed_eq m c t) cover

end Cert.KernelIdeal.Arr

end
-- ==== Proof.KernelResult.lean ====
/-
  The kernel program's result: the run, read.

  After the region the host keeps the first 2000 columns of the `[32, 2048]` output.  In those columns the padded arrays read
  their operands, so the result is the specification's array with the minimum taken first and the factor −2 folded into the
  prototypes (`GFolded`).
-/
import proofs.«140451_j70574902607955_2_alg».proof.Proof.KernelArray
import Idealize.ShloMosaic.Lib.StableHlo.Run

noncomputable section

open scoped BigOperators

namespace Cert.KernelIdeal.Result

open Cert.KernelIdeal Cert.KernelIdeal.Gen Idealize.ShloMosaic Idealize.ShloMosaic.TcCoe Idealize.SL.Sem Idealize.ShloMosaic.StableHlo
open Idealize.ShloMosaic.ValueIdx

/-- The first 2000 columns of `rows` of the three launched arrays are `GFolded` of the two arguments. -/
theorem slice_rows (x : (⟨S32x512x28x28, .f32⟩ : BufTy).Contents (Elt Ideal)) (P : (⟨S2000x512, .f32⟩ : BufTy).Contents (Elt Ideal)) :
    extractStridedSlice S32x2000 ![0, 0] (MinDist.rows (HostPre.patchesArr x) (HostPre.protoArr P) (HostPre.normArr P))
        slices_S32x2048_S32x2000_0_0
      = MinDist.GFolded x P := by
  funext j
  obtain ⟨b, p, rfl⟩ : ∃ (b : Fin 32) (p : Fin 2000), j = ix2 b p := ⟨j 0, j 1, eq_ix2 j⟩
  have hp : p.val < 2048 := by have := p.isLt; omega
  rw [extractStridedSlice_apply ![0, 0] _ slices_S32x2048_S32x2000_0_0 (ix2 b p) (ix2 b (⟨p.val, hp⟩ : Fin 2048)) (fun a => by
    match a with
    | ⟨0, _⟩ => show b.val = 0 + b.val; omega
    | ⟨1, _⟩ => show p.val = 0 + p.val; omega)]
  show Ideal.ofBits .f32 0x00000000#32
      - MinDist.post ((Finset.univ : Finset (Fin 784)).fold min (Ideal.ofBits .f32 0x7F800000#32) fun n =>
          (HostPre.normArr P (ix2 (⟨p.val, hp⟩ : Fin 2048) (0 : Fin 1))
            + ∑ c : Fin 512, HostPre.patchesArr x (ix3 b c n) * HostPre.patchesArr x (ix3 b c n))
          + ∑ c : Fin 512, HostPre.protoArr P (ix2 (⟨p.val, hp⟩ : Fin 2048) c) * HostPre.patchesArr x (ix3 b c n))
    = Ideal.ofBits .f32 0x00000000#32
      - MinDist.post ((Finset.univ : Finset (Fin 784)).fold min (Ideal.ofBits .f32 0x7F800000#32) fun n =>
          MinDist.distFolded (Ideal.ofBits .f32 0x00000000#32 + ∑ c : Fin 512, P (ix2 p c) * P (ix2 p c))
            (fun c : Fin 512 => MinDist.pix x b c n) (fun c : Fin 512 => P (ix2 p c)))
  simp only [HostPre.patchesArr_apply, HostPre.protoArr_apply P ⟨p.val, hp⟩ p.isLt, HostPre.normArr_apply P ⟨p.val, hp⟩ p.isLt, MinDist.distFolded,
    Fin.eta]

variable (m : (ℓ : Loc nD τ sig) → Buf (Elt Ideal) ℓ) (ρ : Dev nD → PrngReg)

/-- The result buffer after the host's last line: the first 2000 columns of the output array. -/
theorem tail_eq (c : Dev nD) :
    (Pipeline.afterTail₀ cfgs (dats m) 0 (V0 m) [hostOps1] c main_v10 : S32x2000.Idx → EReal)
      = MinDist.GFolded (m ((c : Thread nD τ).loc main_arg0)) (m ((c : Thread nD τ).loc main_arg1)) := by
  rw [← slice_rows, ← Arr.final m c]
  unfold Pipeline.afterTail₀
  show StableHlo.after hostOps1 _ (Proc.devRef .tc main_v10) = _
  after_results
  rw [Pipeline.withArrays_arr spec0 launch0.win.arr_inj c _ _ 3]

/-- THE KERNEL PROGRAM'S RUN: it terminates with the result at `GFolded` of the arguments, the arguments unchanged. -/
theorem run : θ_run defs (onTc (τ := τ) (main (F := Ideal))) ⟨m, fun _ => 0, ρ⟩ fun r => ∀ c : Dev nD,
      r.2.mem ((c : Thread nD τ).loc main_v10)
        = MinDist.GFolded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v10 (Pipeline.mem_restRefs_of main_v10 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result

end
-- ==== Proof.Finite.lean ====
/-
  The precondition read back: every entry of both arguments is a real number.

  The precondition compares the absolute value of every entry with `+∞` and takes the conjunction of all the comparisons, for
  each argument, and the conjunction of the two.  If that is true then every comparison is: `|x| < ⊤` on the extended reals,
  which fails at both infinities, so `x` is a real.
-/
import proofs.«140451_j70574902607955_2_alg».proof.Pre_finite_inputs
import proofs.«140451_j70574902607955_2_alg».proof.Proof.LibRealSums
import Idealize.ShloMosaic.Lib.ReduceAll
import Idealize.ShloMosaic.Lib.ValueIdx
import Idealize.ShloMosaic.PureOps.Ideal.Laws

noncomputable section

namespace Cert.Finite

open Idealize.ShloMosaic Cert.Lib.RealSums

instance : Subsingleton (⟨0, ![]⟩ : Shape).Idx := ⟨fun _ _ => funext fun d => d.elim0⟩

/-- An extended real whose absolute value is below `+∞` is a real. -/
theorem fin'_of_abs_lt (x : EReal) (h : Ideal.cmp .olt (max x (-x)) (Ideal.ofBits .f32 0x7F800000#32) = 1#1) : Fin' x := by
  have hinf : Ideal.ofBits .f32 0x7F800000#32 = ⊤ := by simp [Ideal.ofBits, Ideal.ieee]
  rw [hinf] at h
  induction x using EReal.rec with
  | bot => exfalso; simp [Ideal.cmp] at h
  | top => exfalso; simp [Ideal.cmp] at h
  | coe r => exact fin'_coe r

variable [Cert.Pre_finite_inputs.Facts]

/-- THE PRECONDITION gives real entries. -/
theorem of_pre (x : FVec Ideal Cert.Pre_finite_inputs.S32x512x28x28 .f32) (P : FVec Ideal Cert.Pre_finite_inputs.S2000x512 .f32)
    (h : Cert.Pre_finite_inputs.fn (F := Ideal) x P = fun _ => 1#1) : (∀ i, Fin' (x i)) ∧ (∀ i, Fin' (P i)) := by
  have h0 := congrFun h ValueIdx.ix0
  dsimp only [Cert.Pre_finite_inputs.fn] at h0
  have h1 := IntOp.andi_eq_one.mp h0
  exact ⟨fun i => fin'_of_abs_lt _ (Host.reduce_andi_all _ _ _ _ _ h1.1 i),
    fun i => fin'_of_abs_lt _ (Host.reduce_andi_all _ _ _ _ _ h1.2 i)⟩

end Cert.Finite

end
-- ==== Proof.lean ====
/-
  Nearest-patch distances: for every batch entry `b` and prototype `p`, minus the least Euclidean distance from prototype `p`
  to one of the 784 patches of entry `b`, each distance taken as the root of `‖x‖² + ‖P‖² − 2⟨x, P⟩` clamped at zero.

  The reference does exactly that on `[32, 784, 2000]` arrays.  The kernel keeps the patches as `[32, 512, 784]`, folds the factor
  −2 into a padded prototype table, forms `(‖P‖² + ‖x‖²) + ⟨−2P, x⟩` per block of 8 batch entries by 1024 prototypes, takes the
  minimum over the patches BEFORE clamping and taking the root, and negates as `0 − ·`; the host then drops the 48 padding
  columns.  Over the extended reals the two results are equal entry by entry:

  * for real inputs — the precondition — the two squared distances are the same real number (Proof/Spec.lean
    `distFolded_eq_distDiff`; this is where finiteness is used: a factor does not move across a sum of infinities);
  * clamp-and-root is monotone and fixes `+∞`, so it commutes with the minimum over the patches (`post_fold`);
  * `0 − y = −y`.

  The modules: Proof/Spec.lean (the mathematics), Proof/RefRead.lean (the reference's result is the specification's array `G`),
  Proof/KernelRow.lean and Proof/KernelBlock.lean (the block a grid point leaves), Proof/HostPre.lean (the arrays the region is
  launched on), Proof/KernelArray.lean (the 8 blocks tile the output), Proof/KernelResult.lean (the kept columns are `GFolded`),
  Proof/Finite.lean (the precondition gives real entries).  The three frames are the generated ones; no operation was rewritten by
  the idealization, so the `preserves` conjunct is `True`.
-/
import proofs.«140451_j70574902607955_2_alg».proof.Defs
import proofs.«140451_j70574902607955_2_alg».proof.Proof.Gen.Kernel
import proofs.«140451_j70574902607955_2_alg».proof.Proof.Gen.Kernel.Skeleton
import proofs.«140451_j70574902607955_2_alg».proof.Proof.Gen.Kernel.Launch
import proofs.«140451_j70574902607955_2_alg».proof.Proof.Gen.Kernel.Points
import proofs.«140451_j70574902607955_2_alg».proof.Proof.Gen.Kernel.Frame
import proofs.«140451_j70574902607955_2_alg».proof.Proof.Gen.KernelIdeal
import proofs.«140451_j70574902607955_2_alg».proof.Proof.Gen.KernelIdeal.Skeleton
import proofs.«140451_j70574902607955_2_alg».proof.Proof.Gen.KernelIdeal.Launch
import proofs.«140451_j70574902607955_2_alg».proof.Proof.Gen.KernelIdeal.Points
import proofs.«140451_j70574902607955_2_alg».proof.Proof.Gen.KernelIdeal.Frame
import proofs.«140451_j70574902607955_2_alg».proof.Proof.Gen.ReferenceIdeal
import proofs.«140451_j70574902607955_2_alg».proof.Proof.Gen.Pre_finite_inputs
import proofs.«140451_j70574902607955_2_alg».proof.Proof.Gen.ReferenceIdeal.Run
import proofs.«140451_j70574902607955_2_alg».proof.Proof.Gen.ReferenceIdeal.Read
import proofs.«140451_j70574902607955_2_alg».proof.Proof.RefRead
import proofs.«140451_j70574902607955_2_alg».proof.Proof.KernelResult
import proofs.«140451_j70574902607955_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's array `G` of the arguments: the kernel program at `GFolded`, which is `G` for
    real entries; the reference at its last stage, which is `G` outright. -/
theorem algebraic : Cert.algebraic_KernelIdeal_ReferenceIdeal := by
  intro m ρ m' ρ' hpre hagree
  refine ⟨fun c => Cert.MinDist.G (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Result.run m ρ)
    obtain ⟨hx, hP⟩ := Cert.Finite.of_pre _ _ (hpre c)
    exact Cert.MinDist.GFolded_eq_G _ _ hx hP
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
